-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 63
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S128x128, .bf16⟩
  | .hbm, ⟨58, _⟩ => ⟨S128x128, .bf16⟩
  | .hbm, ⟨59, _⟩ => ⟨S1x128, .f32⟩
  | .hbm, ⟨60, _⟩ => ⟨S128x40, .bf16⟩
  | .hbm, ⟨61, _⟩ => ⟨S1x40, .f32⟩
  | .hbm, ⟨62, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S128x40, .bf16⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x40 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x40.size a ≤ S128x40.size a
  hwx1_6 : ∀ i : grid1.Coords, EltTy.bits .bf16 = 32 ∨ (Rect.block (s := S128x40) S128x40.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x40.size a ≤ S1x40.size a
  hwx1_7 : ∀ i : grid1.Coords, EltTy.bits .f32 = 32 ∨ (Rect.block (s := S1x40) S1x40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x40.size a ≤ S100000x40.size a
  hwx1_8 : ∀ i : grid1.Coords, EltTy.bits .f32 = 32 ∨ (Rect.block (s := S100000x40) S5000x40.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S128x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S5000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result NAMED.

  The program is four segments: host operations, the first kernel region, host operations, the second kernel region.
  The contents of every buffer at each boundary are a fold through the program (`W0 … W4` of the generated frame
  module); the last thread state holds every unscoped buffer at `W4`. Reading the final memory against that state gives,
  besides the argument arrays unchanged, the result buffer `main_v42` at `W4`'s contents for it — which is what the second
  region's write-backs leave.
-/
import proofs.«105502_j52123723104477_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents for
    it, and the argument arrays end as launched. -/
theorem run_named : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Net

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KernelBody.lean ====
/-
  The two kernel bodies, read at an index of their output block, on the extended reals.

  A block of 5000 nodes is processed at a time. For the block's rows `x0` of features, `x1` of neighbourhood sums
  and the column `x2` of reciprocal degrees, with the weights `x3`, `x4` and the bias row `x5`, the first body
  stores, at row `p` and channel `q`,

      max( (Σ_k x0[p, k] · x3[k, q]  +  Σ_k (x1[p, k] · x2[p, 0]) · x4[k, q])  +  x5[0, q],  0 ).

  The second body computes the same expression, narrows it, multiplies by the classifier's weights `x6` and adds
  the classifier's bias row `x7`. A change of float format is the identity on the extended reals, a product of
  matrices accumulated into a zero block is the plain sum over the contracted axis, a cast of a shape to itself is
  the identity, a `[5000, 1]` column broadcast along its unit axis reads the column, and a `[1, b]` row broadcast
  down the rows reads the row.
-/
import proofs.«105502_j52123723104477_2_alg».proof.Proof.Gen.KernelIdeal.Skeleton
import proofs.«105502_j52123723104477_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The block matrix products as sums over the 128 contracted channels -/

/-- Row coordinate of the left operand's index in the square product: the output's row. -/
theorem lhs_sq_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- Column coordinate of the right operand's index in the square product: the output's column. -/
theorem rhs_sq_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128] × [128, 128]` product accumulated into the zero block, at `(p, q)`: the sum over the contracted
    channel `k` of `A[p, k] · B[k, q]`. -/
theorem matmul_sq_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  refine (Ideal.matmul_constant_zero_apply dot_S5000x128_S128x128_S5000x128_1_0_0_1_n_n none A B (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_sq_0 _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_sq_1 _ _)
  rw [el, er]

/-- Row coordinate of the left operand's index in the classifier's product: the output's row. -/
theorem lhs_cls_0 (i : S5000x40.Idx) (r : dot_S5000x128_S128x40_S5000x40_1_0_0_1_n_n.contr.Idx) :
    (dot_S5000x128_S128x40_S5000x40_1_0_0_1_n_n.lhsIdx i r 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl

/-- Column coordinate of the right operand's index in the classifier's product: the output's column. -/
theorem rhs_cls_1 (i : S5000x40.Idx) (r : dot_S5000x128_S128x40_S5000x40_1_0_0_1_n_n.contr.Idx) :
    (dot_S5000x128_S128x40_S5000x40_1_0_0_1_n_n.rhsIdx i r 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A `[5000, 128] × [128, 40]` product accumulated into the zero block, at `(p, q)`. -/
theorem matmul_cls_apply {φ₁ φ₂ : FTy} (A : FVec Ideal S5000x128 φ₁) (B : FVec Ideal S128x40 φ₂) (p : Fin 5000) (q : Fin 40) :
    matmul dot_S5000x128_S128x40_S5000x40_1_0_0_1_n_n none A B (constant (F := Ideal) S5000x40 .f32 0x00000000#32) (ix2 p q)
      = ∑ k : Fin 128, A (ix2 p k) * B (ix2 k q) := by
  refine (Ideal.matmul_constant_zero_apply dot_S5000x128_S128x40_S5000x40_1_0_0_1_n_n none A B (ix2 p q)).trans ?_
  rw [← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun a => Fin.ext (by
    match a with
    | ⟨0, _⟩ => exact lhs_cls_0 _ _
    | ⟨1, _⟩ => exact (dot_S5000x128_S128x40_S5000x40_1_0_0_1_n_n.lhsIdx_val_of_single rfl (ix2 p q) _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun a => Fin.ext (by
    match a with
    | ⟨0, _⟩ => exact (dot_S5000x128_S128x40_S5000x40_1_0_0_1_n_n.rhsIdx_val_of_single rfl (ix2 p q) _).trans hk
    | ⟨1, _⟩ => exact rhs_cls_1 _ _)
  rw [el, er]

/-! ## The hidden activation both bodies compute -/

/-- The rectified affine combination at row `p` and channel `q` of a block. -/
def hiddenAt (x0 x1 : S5000x128.Idx → EReal) (x2 : S5000x1.Idx → EReal) (x3 x4 : S128x128.Idx → EReal)
    (x5 : S1x128.Idx → EReal) (p : Fin 5000) (q : Fin 128) : EReal :=
  max (((∑ k : Fin 128, x0 (ix2 p k) * x3 (ix2 k q)) + ∑ k : Fin 128, (x1 (ix2 p k) * x2 (ix2 p (0 : Fin 1))) * x4 (ix2 k q))
        + x5 (ix2 (0 : Fin 1) q)) (Ideal.ofBits .f32 0x00000000#32)

/-- The first body's stored value at `(p, q)`. -/
theorem pay0_apply (x0 x1 : Vec Ideal S5000x128 .f32) (x2 : Vec Ideal S5000x1 .f32) (x3 x4 : Vec Ideal S128x128 .bf16)
    (x5 : Vec Ideal S1x128 .f32) (p : Fin 5000) (q : Fin 128) :
    k0_pay1 (F := Ideal) x0 x1 x2 x3 x4 x5 (ix2 p q) = hiddenAt x0 x1 x2 x3 x4 x5 p q := by
  unfold k0_pay1 hiddenAt
  simp only [shapeCast_self]
  rw [maximumf_apply, addf_apply, addf_apply, matmul_sq_apply, matmul_sq_apply, broadcast_apply, broadcastTo_1b_ab_apply]
  simp only [truncf_apply, mulf_apply, Keepdims.broadcastTo_a1_ab_apply]
  rfl

/-- The second body's stored value at `(p, q)`: the hidden activation of row `p` against column `q` of the
    classifier's weights, plus the classifier's bias. -/
theorem pay1_apply (x0 x1 : Vec Ideal S5000x128 .f32) (x2 : Vec Ideal S5000x1 .f32) (x3 x4 : Vec Ideal S128x128 .bf16)
    (x5 : Vec Ideal S1x128 .f32) (x6 : Vec Ideal S128x40 .bf16) (x7 : Vec Ideal S1x40 .f32) (p : Fin 5000) (q : Fin 40) :
    k1_pay1 (F := Ideal) x0 x1 x2 x3 x4 x5 x6 x7 (ix2 p q)
      = (∑ k : Fin 128, hiddenAt x0 x1 x2 x3 x4 x5 p k * x6 (ix2 k q)) + x7 (ix2 (0 : Fin 1) q) := by
  unfold k1_pay1
  simp only [shapeCast_self]
  rw [addf_apply, matmul_cls_apply, broadcastTo_1b_ab_apply]
  refine congrArg (· + x7 (ix2 (0 : Fin 1) q)) (Finset.sum_congr rfl fun k _ => ?_)
  rw [truncf_apply]
  refine congrArg (· * x6 (ix2 k q)) ?_
  unfold hiddenAt
  rw [maximumf_apply, addf_apply, addf_apply, matmul_sq_apply, matmul_sq_apply, broadcast_apply, broadcastTo_1b_ab_apply]
  simp only [truncf_apply, mulf_apply, Keepdims.broadcastTo_a1_ab_apply]
  rfl

end Cert.KernelIdeal.Body

end
-- ==== Proof.LibReciprocal.lean ====
/-
  General lemmas on the extended reals: a product with the reciprocal of a nonzero divisor is the quotient by that
  divisor, infinite divisors included; and a quantity clamped below by the float literal one is never zero.

  The quotient here is the idealized float quotient: for a divisor `y ≠ 0` it is `x * y⁻¹`, with `(±∞)⁻¹ = 0`.
  Hence `1 / y = y⁻¹` and `x * (1 / y) = x * y⁻¹ = x / y` for every `x`, finite or not: no finiteness of `x` or `y`
  is needed, only `y ≠ 0`.
-/
import Idealize.ShloMosaic.PureOps.Ideal

noncomputable section

namespace Reciprocal

open Idealize.ShloMosaic

/-- The float literal `1.0` (single precision) denotes the real number one. -/
theorem one_f32 : Ideal.ofBits .f32 0x3F800000#32 = 1 := by
  simp [Ideal.ofBits, Ideal.ieee, -EReal.coe_mul]; norm_num

/-- The reciprocal of a nonzero extended real is its inverse. -/
theorem div_one_left (y : EReal) (hy : y ≠ 0) : Ideal.div 1 y = y⁻¹ := by
  rw [Ideal.div, if_neg hy, one_mul]

/-- Multiplying by the reciprocal of a nonzero divisor is dividing by it, at the infinities too. -/
theorem mul_div_one (x y : EReal) (hy : y ≠ 0) : x * Ideal.div 1 y = Ideal.div x y := by
  rw [div_one_left y hy, Ideal.div, if_neg hy]

/-- A quantity clamped below by the literal one is at least one, hence not zero. -/
theorem max_one_ne_zero (d : EReal) : max d (Ideal.ofBits .f32 0x3F800000#32) ≠ 0 := by
  rw [one_f32]
  intro h
  have h1 : (1 : EReal) ≤ max d 1 := le_max_right d 1
  rw [h] at h1
  exact absurd h1 (not_le.mpr zero_lt_one)

/-- The mean by a clamped count, written either way: the sum times the reciprocal of the clamped count is the sum
    divided by the clamped count. -/
theorem mul_recip_clamped (x d : EReal) :
    x * Ideal.div (Ideal.ofBits .f32 0x3F800000#32) (max d (Ideal.ofBits .f32 0x3F800000#32))
      = Ideal.div x (max d (Ideal.ofBits .f32 0x3F800000#32)) := by
  have h := mul_div_one x _ (max_one_ne_zero d)
  rw [one_f32] at h ⊢
  exact h

end Reciprocal

end
-- ==== Proof.SageSpec.lean ====
/-
  The specification of a two-layer mean-aggregating graph network, index by index, on the extended reals.

  For node features `X : [100000, 128]`, a neighbourhood sum `S : [100000, 128]` (row `n` of `S` is the sum of the
  feature rows of the nodes with an edge into `n`) and an in-degree clamped below by one `D : [100000]`, one layer is

      H[n, q] = max( (Σ_k X[n, k] · Wself[k, q]  +  Σ_k N[n, k] · Wneigh[k, q])  +  b[q],  0 )

  where `N` is the row-normalised neighbourhood sum. `N` is written in two ways: every entry of row `n` DIVIDED by
  `D[n]` (`divRows`), or MULTIPLIED by a precomputed column `inv[n, 0]` (`scaleRows`). When the column holds the
  reciprocals `1 / D[n]` and `D[n] = max(deg[n], 1)` the two are one array (`scaleRows_eq_divRows`): a product with
  the reciprocal of a nonzero divisor is the quotient, and a count clamped below by one is not zero. The classifier is
  `out[n, q] = Σ_k H[n, k] · Wcls[k, q] + bcls[q]`.
-/
import Idealize.ShloMosaic.PureOps.Ideal
import Idealize.ShloMosaic.Lib.ValueIdx
import proofs.«105502_j52123723104477_2_alg».proof.Proof.LibReciprocal

noncomputable section

namespace Sage

open Idealize.ShloMosaic Idealize.ShloMosaic.ValueIdx

/-- Node features: one row of 128 channels per node. -/
abbrev Feat : Shape := ⟨2, ![100000, 128]⟩
/-- A square weight matrix. -/
abbrev Wgt : Shape := ⟨2, ![128, 128]⟩
/-- A bias vector. -/
abbrev Bias : Shape := ⟨1, ![128]⟩
/-- One value per node, as a vector and as a column. -/
abbrev PerNode : Shape := ⟨1, ![100000]⟩
abbrev NodeCol : Shape := ⟨2, ![100000, 1]⟩
/-- The classifier's weights, bias and output. -/
abbrev ClsWgt : Shape := ⟨2, ![128, 40]⟩
abbrev ClsBias : Shape := ⟨1, ![40]⟩
abbrev Logits : Shape := ⟨2, ![100000, 40]⟩

/-- The float literal one. -/
abbrev one : EReal := Ideal.ofBits .f32 0x3F800000#32

/-- One layer at node `n` and output channel `q`: the self term plus the neighbour term, plus the bias, clamped
    below by `z` (the rectifier's zero). -/
def layerAt (X N : Feat.Idx → EReal) (Ws Wn : Wgt.Idx → EReal) (b : Bias.Idx → EReal) (z : EReal)
    (n : Fin 100000) (q : Fin 128) : EReal :=
  max (((∑ k : Fin 128, X (ix2 n k) * Ws (ix2 k q)) + ∑ k : Fin 128, N (ix2 n k) * Wn (ix2 k q)) + b (ix1 q)) z

/-- One layer as an array. -/
def layer (X N : Feat.Idx → EReal) (Ws Wn : Wgt.Idx → EReal) (b : Bias.Idx → EReal) (z : EReal) : Feat.Idx → EReal :=
  fun i => layerAt X N Ws Wn b z ⟨(i 0).val, (i 0).isLt⟩ ⟨(i 1).val, (i 1).isLt⟩

theorem layer_apply (X N : Feat.Idx → EReal) (Ws Wn : Wgt.Idx → EReal) (b : Bias.Idx → EReal) (z : EReal)
    (n : Fin 100000) (q : Fin 128) : layer X N Ws Wn b z (ix2 n q) = layerAt X N Ws Wn b z n q := rfl

/-- The classifier at node `n` and class `q`. -/
def classifyAt (H : Feat.Idx → EReal) (Wc : ClsWgt.Idx → EReal) (bc : ClsBias.Idx → EReal)
    (n : Fin 100000) (q : Fin 40) : EReal :=
  (∑ k : Fin 128, H (ix2 n k) * Wc (ix2 k q)) + bc (ix1 q)

/-- The classifier as an array. -/
def classify (H : Feat.Idx → EReal) (Wc : ClsWgt.Idx → EReal) (bc : ClsBias.Idx → EReal) : Logits.Idx → EReal :=
  fun i => classifyAt H Wc bc ⟨(i 0).val, (i 0).isLt⟩ ⟨(i 1).val, (i 1).isLt⟩

theorem classify_apply (H : Feat.Idx → EReal) (Wc : ClsWgt.Idx → EReal) (bc : ClsBias.Idx → EReal)
    (n : Fin 100000) (q : Fin 40) : classify H Wc bc (ix2 n q) = classifyAt H Wc bc n q := rfl

/-- Every entry of row `n` multiplied by the column's entry for `n`. -/
def scaleRows (S : Feat.Idx → EReal) (inv : NodeCol.Idx → EReal) : Feat.Idx → EReal :=
  fun j => S j * inv (ix2 ⟨(j 0).val, (j 0).isLt⟩ (0 : Fin 1))

theorem scaleRows_apply (S : Feat.Idx → EReal) (inv : NodeCol.Idx → EReal) (n : Fin 100000) (k : Fin 128) :
    scaleRows S inv (ix2 n k) = S (ix2 n k) * inv (ix2 n (0 : Fin 1)) := rfl

/-- Every entry of row `n` divided by the vector's entry for `n`. -/
def divRows (S : Feat.Idx → EReal) (D : PerNode.Idx → EReal) : Feat.Idx → EReal :=
  fun j => Ideal.div (S j) (D (ix1 ⟨(j 0).val, (j 0).isLt⟩))

theorem divRows_apply (S : Feat.Idx → EReal) (D : PerNode.Idx → EReal) (n : Fin 100000) (k : Fin 128) :
    divRows S D (ix2 n k) = Ideal.div (S (ix2 n k)) (D (ix1 n)) := rfl

/-- Scaling the rows by the reciprocals of the clamped degrees IS dividing the rows by the clamped degrees:
    `x · (1 / d) = x / d` on the extended reals for every `d ≠ 0`, and `d = max(deg, 1) ≥ 1`. -/
theorem scaleRows_eq_divRows (S : Feat.Idx → EReal) (inv : NodeCol.Idx → EReal) (D deg : PerNode.Idx → EReal)
    (hD : ∀ n : Fin 100000, D (ix1 n) = max (deg (ix1 n)) one)
    (hinv : ∀ n : Fin 100000, inv (ix2 n (0 : Fin 1)) = Ideal.div one (D (ix1 n))) :
    scaleRows S inv = divRows S D := by
  funext j
  obtain ⟨n, k, rfl⟩ : ∃ (n : Fin 100000) (k : Fin 128), j = ix2 n k := ⟨j 0, j 1, eq_ix2 j⟩
  rw [scaleRows_apply, divRows_apply, hinv n, hD n]
  exact Reciprocal.mul_recip_clamped _ _

end Sage

end
-- ==== Proof.KernelBlocks.lean ====
/-
  From blocks to arrays: what each kernel region leaves in its output array, as one function of the arrays the region
  finds at entry.

  Both regions walk the 100000 nodes in 20 blocks of 5000 rows. At grid point `t` the row blocks of the node-indexed
  operands (features, neighbourhood sums, the reciprocal-degree column) start at row `5000 · t`; the weights and the bias
  rows are whole blocks that do not move. So row `p` of the block written back at point `t` is row `n = 5000 · t + p`
  of the whole-array function, every node `n` lies in the block of point `n / 5000`, and the output array ends holding
  that function everywhere.

  Region 0 leaves one layer's activations; region 1 leaves the classifier's output on a second layer.
-/
import proofs.«105502_j52123723104477_2_alg».proof.Proof.Gen.KernelIdeal.Frame
import proofs.«105502_j52123723104477_2_alg».proof.Proof.KernelBody
import proofs.«105502_j52123723104477_2_alg».proof.Proof.SageSpec
import Idealize.ShloMosaic.Lib.Pipeline.Value

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat Cfg Window)

/-- The rectifier's zero, as the programs spell it. -/
abbrev zero : EReal := Ideal.ofBits .f32 0x00000000#32

/-- The origin of a rank-2 block. -/
theorem origin2 : (![0, 0] : Fin 2 → Nat) = fun _ => 0 := funext fun a => by fin_cases a <;> rfl

/-- A `[1, 128]` bias row as a bias vector. -/
abbrev biasOfRow (r : S1x128.Idx → EReal) : Sage.Bias.Idx → EReal := fun j => r (ix2 (0 : Fin 1) ⟨(j 0).val, (j 0).isLt⟩)
/-- A `[1, 40]` bias row as a bias vector. -/
abbrev clsBiasOfRow (r : S1x40.Idx → EReal) : Sage.ClsBias.Idx → EReal := fun j => r (ix2 (0 : Fin 1) ⟨(j 0).val, (j 0).isLt⟩)

/-- The hidden activation of row `p` of a block is the layer at node `n`, when the block's rows are rows of the arrays
    at `n` and its weights and bias row are the arrays' own. -/
theorem hidden_of_blocks (X S : Sage.Feat.Idx → EReal) (inv : Sage.NodeCol.Idx → EReal) (W3 W4 : Sage.Wgt.Idx → EReal)
    (brow : S1x128.Idx → EReal)
    (x0 x1 : S5000x128.Idx → EReal) (x2 : S5000x1.Idx → EReal) (x3 x4 : S128x128.Idx → EReal) (x5 : S1x128.Idx → EReal)
    (n : Fin 100000) (p : Fin 5000) (q : Fin 128)
    (h0 : ∀ k : Fin 128, x0 (ix2 p k) = X (ix2 n k)) (h1 : ∀ k : Fin 128, x1 (ix2 p k) = S (ix2 n k))
    (h2 : x2 (ix2 p (0 : Fin 1)) = inv (ix2 n (0 : Fin 1)))
    (h3 : ∀ k : Fin 128, x3 (ix2 k q) = W3 (ix2 k q)) (h4 : ∀ k : Fin 128, x4 (ix2 k q) = W4 (ix2 k q))
    (h5 : x5 (ix2 (0 : Fin 1) q) = brow (ix2 (0 : Fin 1) q)) :
    Body.hiddenAt x0 x1 x2 x3 x4 x5 p q = Sage.layerAt X (Sage.scaleRows S inv) W3 W4 (biasOfRow brow) zero n q := by
  unfold Body.hiddenAt Sage.layerAt
  simp only [h0, h1, h2, h3, h4, h5, Sage.scaleRows_apply]

/-! ## Region 0: one layer -/

section Region0

variable (V : (c : Dev nD) → (b : Ref sig .tc) → Buf (Elt Ideal) ((c : Thread nD τ).loc b)) (c : Dev nD)

/-- Where each window's block sits at grid point `t`, decided over the 20 points: the node-indexed windows at block
    row `t`, the weights and the bias row at the origin. -/
theorem place0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block row of the output is some grid point's. -/
theorem onto0 : ∀ b : Fin 20, ∃ t : Fin cfg0.N, win0_6.index t = ![b.val, 0] :=
  (by decide +kernel : ∀ b : Fin 20, ∃ t : Fin grid0.N, win0_6.index t = ![b.val, 0])

/-- The layer the region computes, of the arrays it finds at entry. -/
def hidden0 : Sage.Feat.Idx → EReal :=
  Sage.layer (V c main_arg0) (Sage.scaleRows (V c main_v22) (V c main_v12)) (V c main_v23) (V c main_v24)
    (biasOfRow (V c main_v25)) zero

/-- What grid point `t` writes back is block `t` of that layer. -/
theorem flushed0 (t : Fin cfg0.N) :
    (dat0 V c).flushed 6 t = ((cfg0.win 6).blk t).view.read (Elt Ideal) (hidden0 V c) := by
  show (cfg0.win 6).cut (grid0.coords t) ((dat0 V c).after 6 t) = _
  rw [after0_6]
  unfold out0_6
  rw [View.canon_unit_zero origin2]
  simp only [View.ld_unit_zero (S := S5000x128) origin2, View.ld_unit_zero (S := S5000x1) origin2,
    View.ld_unit_zero (S := S128x128) origin2, View.ld_unit_zero (S := S1x128) origin2]
  obtain ⟨e00, e01, e10, e11, e20, e21, e30, e31, e40, e41, e50, e51, e60, e61⟩ := place0 t
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  obtain ⟨n, hn⟩ : ∃ n : Fin 100000, n.val = t.val * 5000 + p.val := ⟨⟨t.val * 5000 + p.val, by omega⟩, rfl⟩
  show k0_pay1 (iblk0 V c 0 t) (iblk0 V c 1 t) (iblk0 V c 2 t) (iblk0 V c 3 t) (iblk0 V c 4 t) (iblk0 V c 5 t) (ix2 p q)
    = hidden0 V c (((cfg0.win 6).blk t).view.emb (ix2 p q))
  have hemb : ((cfg0.win 6).blk t).view.emb (ix2 p q) = ix2 n q := by
    funext a; apply Fin.ext
    match a with
    | ⟨0, _⟩ => show win0_6.index t (0 : Fin 2) * 5000 + 1 * p.val = n.val; rw [e60, hn]; omega
    | ⟨1, _⟩ => show win0_6.index t (1 : Fin 2) * 128 + 1 * q.val = q.val; rw [e61]; omega
  rw [hemb]
  refine (Body.pay0_apply (iblk0 V c 0 t) (iblk0 V c 1 t) (iblk0 V c 2 t) (iblk0 V c 3 t) (iblk0 V c 4 t) (iblk0 V c 5 t) p q).trans ?_
  unfold hidden0
  rw [Sage.layer_apply]
  refine hidden_of_blocks _ _ _ _ _ _ _ _ _ _ _ _ n p q ?_ ?_ ?_ ?_ ?_ ?_
  · intro k
    show V c main_arg0 (((cfg0.win 0).blk t).view.emb (ix2 p k)) = V c main_arg0 (ix2 n k)
    refine congrArg _ (funext fun a => Fin.ext ?_)
    match a with
    | ⟨0, _⟩ => show win0_0.index t (0 : Fin 2) * 5000 + 1 * p.val = n.val; rw [e00, hn]; omega
    | ⟨1, _⟩ => show win0_0.index t (1 : Fin 2) * 128 + 1 * k.val = k.val; rw [e01]; omega
  · intro k
    show V c main_v22 (((cfg0.win 1).blk t).view.emb (ix2 p k)) = V c main_v22 (ix2 n k)
    refine congrArg _ (funext fun a => Fin.ext ?_)
    match a with
    | ⟨0, _⟩ => show win0_1.index t (0 : Fin 2) * 5000 + 1 * p.val = n.val; rw [e10, hn]; omega
    | ⟨1, _⟩ => show win0_1.index t (1 : Fin 2) * 128 + 1 * k.val = k.val; rw [e11]; omega
  · show V c main_v12 (((cfg0.win 2).blk t).view.emb (ix2 p (0 : Fin 1))) = V c main_v12 (ix2 n (0 : Fin 1))
    refine congrArg _ (funext fun a => Fin.ext ?_)
    match a with
    | ⟨0, _⟩ => show win0_2.index t (0 : Fin 2) * 5000 + 1 * p.val = n.val; rw [e20, hn]; omega
    | ⟨1, _⟩ => show win0_2.index t (1 : Fin 2) * 1 + 1 * 0 = 0; rw [e21]
  · intro k
    show V c main_v23 (((cfg0.win 3).blk t).view.emb (ix2 k q)) = V c main_v23 (ix2 k q)
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  · intro k
    show V c main_v24 (((cfg0.win 4).blk t).view.emb (ix2 k q)) = V c main_v24 (ix2 k q)
    refine congrArg _ (funext fun a => Fin.ext ?_)
    match a with
    | ⟨0, _⟩ => show win0_4.index t (0 : Fin 2) * 128 + 1 * k.val = k.val; rw [e40]; omega
    | ⟨1, _⟩ => show win0_4.index t (1 : Fin 2) * 128 + 1 * q.val = q.val; rw [e41]; omega
  · show V c main_v25 (((cfg0.win 5).blk t).view.emb (ix2 (0 : Fin 1) q)) = V c main_v25 (ix2 (0 : Fin 1) q)
    refine congrArg _ (funext fun a => Fin.ext ?_)
    match a with
    | ⟨0, _⟩ => show win0_5.index t (0 : Fin 2) * 1 + 1 * 0 = 0; rw [e50]
    | ⟨1, _⟩ => show win0_5.index t (1 : Fin 2) * 128 + 1 * q.val = q.val; rw [e51]; omega

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Every node's row is in the block of the grid point `row / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the layer, everywhere. -/
theorem final0 : (dat0 V c).arrAt 6 cfg0.N = hidden0 V c :=
  (dat0 V c).arrAt_eq_of_cover 6 (hidden0 V c) (fun t _ => flushed0 V c t) (cover0)

end Region0

/-! ## Region 1: a second layer and the classifier -/

section Region1

variable (V : (c : Dev nD) → (b : Ref sig .tc) → Buf (Elt Ideal) ((c : Thread nD τ).loc b)) (c : Dev nD)

/-- Where each window's block sits at grid point `t`, decided over the 20 points. -/
theorem place1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Every block row of the output is some grid point's. -/
theorem onto1 : ∀ b : Fin 20, ∃ t : Fin cfg1.N, win1_8.index t = ![b.val, 0] :=
  (by decide +kernel : ∀ b : Fin 20, ∃ t : Fin grid1.N, win1_8.index t = ![b.val, 0])

/-- The second layer the region computes, of the arrays it finds at entry. -/
def hidden1 : Sage.Feat.Idx → EReal :=
  Sage.layer (V c main_v26) (Sage.scaleRows (V c main_v36) (V c main_v12)) (V c main_v37) (V c main_v38)
    (biasOfRow (V c main_v39)) zero

/-- The classifier's output on that layer. -/
def logits1 : Sage.Logits.Idx → EReal :=
  Sage.classify (hidden1 V c) (V c main_v40) (clsBiasOfRow (V c main_v41))

/-- What grid point `t` writes back is block `t` of the classifier's output. -/
theorem flushed1 (t : Fin cfg1.N) :
    (dat1 V c).flushed 8 t = ((cfg1.win 8).blk t).view.read (Elt Ideal) (logits1 V c) := by
  show (cfg1.win 8).cut (grid1.coords t) ((dat1 V c).after 8 t) = _
  rw [after1_8]
  unfold out1_8
  rw [View.canon_unit_zero origin2]
  simp only [View.ld_unit_zero (S := S5000x128) origin2, View.ld_unit_zero (S := S5000x1) origin2,
    View.ld_unit_zero (S := S128x128) origin2, View.ld_unit_zero (S := S1x128) origin2,
    View.ld_unit_zero (S := S128x40) origin2, View.ld_unit_zero (S := S1x40) origin2]
  obtain ⟨e00, e01, e10, e11, e20, e21, e30, e31, e40, e41, e50, e51, e60, e61, e70, e71, e80, e81⟩ := place1 t
  have ht : t.val < 20 := lt_of_lt_of_eq t.isLt N_1
  funext j
  obtain ⟨p, q, rfl⟩ : ∃ (p : Fin 5000) (q : Fin 40), j = ix2 p q := ⟨j 0, j 1, eq_ix2 j⟩
  have hp : p.val < 5000 := p.isLt
  obtain ⟨n, hn⟩ : ∃ n : Fin 100000, n.val = t.val * 5000 + p.val := ⟨⟨t.val * 5000 + p.val, by omega⟩, rfl⟩
  show k1_pay1 (iblk1 V c 0 t) (iblk1 V c 1 t) (iblk1 V c 2 t) (iblk1 V c 3 t) (iblk1 V c 4 t) (iblk1 V c 5 t) (iblk1 V c 6 t) (iblk1 V c 7 t) (ix2 p q)
    = logits1 V c (((cfg1.win 8).blk t).view.emb (ix2 p q))
  have hemb : ((cfg1.win 8).blk t).view.emb (ix2 p q) = ix2 n q := by
    funext a; apply Fin.ext
    match a with
    | ⟨0, _⟩ => show win1_8.index t (0 : Fin 2) * 5000 + 1 * p.val = n.val; rw [e80, hn]; omega
    | ⟨1, _⟩ => show win1_8.index t (1 : Fin 2) * 40 + 1 * q.val = q.val; rw [e81]; omega
  rw [hemb]
  refine (Body.pay1_apply (iblk1 V c 0 t) (iblk1 V c 1 t) (iblk1 V c 2 t) (iblk1 V c 3 t) (iblk1 V c 4 t) (iblk1 V c 5 t) (iblk1 V c 6 t) (iblk1 V c 7 t) p q).trans ?_
  unfold logits1
  rw [Sage.classify_apply]
  unfold Sage.classifyAt
  have hrow : ∀ k : Fin 128, Body.hiddenAt (iblk1 V c 0 t) (iblk1 V c 1 t) (iblk1 V c 2 t) (iblk1 V c 3 t) (iblk1 V c 4 t) (iblk1 V c 5 t) p k
      = hidden1 V c (ix2 n k) := by
    intro k'
    unfold hidden1
    rw [Sage.layer_apply]
    refine hidden_of_blocks _ _ _ _ _ _ _ _ _ _ _ _ n p k' ?_ ?_ ?_ ?_ ?_ ?_
    · intro k
      show V c main_v26 (((cfg1.win 0).blk t).view.emb (ix2 p k)) = V c main_v26 (ix2 n k)
      refine congrArg _ (funext fun a => Fin.ext ?_)
      match a with
      | ⟨0, _⟩ => show win1_0.index t (0 : Fin 2) * 5000 + 1 * p.val = n.val; rw [e00, hn]; omega
      | ⟨1, _⟩ => show win1_0.index t (1 : Fin 2) * 128 + 1 * k.val = k.val; rw [e01]; omega
    · intro k
      show V c main_v36 (((cfg1.win 1).blk t).view.emb (ix2 p k)) = V c main_v36 (ix2 n k)
      refine congrArg _ (funext fun a => Fin.ext ?_)
      match a with
      | ⟨0, _⟩ => show win1_1.index t (0 : Fin 2) * 5000 + 1 * p.val = n.val; rw [e10, hn]; omega
      | ⟨1, _⟩ => show win1_1.index t (1 : Fin 2) * 128 + 1 * k.val = k.val; rw [e11]; omega
    · show V c main_v12 (((cfg1.win 2).blk t).view.emb (ix2 p (0 : Fin 1))) = V c main_v12 (ix2 n (0 : Fin 1))
      refine congrArg _ (funext fun a => Fin.ext ?_)
      match a with
      | ⟨0, _⟩ => show win1_2.index t (0 : Fin 2) * 5000 + 1 * p.val = n.val; rw [e20, hn]; omega
      | ⟨1, _⟩ => show win1_2.index t (1 : Fin 2) * 1 + 1 * 0 = 0; rw [e21]
    · intro k
      show V c main_v37 (((cfg1.win 3).blk t).view.emb (ix2 k k')) = V c main_v37 (ix2 k k')
      refine congrArg _ (funext fun a => Fin.ext ?_)
      match a with
      | ⟨0, _⟩ => show win1_3.index t (0 : Fin 2) * 128 + 1 * k.val = k.val; rw [e30]; omega
      | ⟨1, _⟩ => show win1_3.index t (1 : Fin 2) * 128 + 1 * k'.val = k'.val; rw [e31]; omega
    · intro k
      show V c main_v38 (((cfg1.win 4).blk t).view.emb (ix2 k k')) = V c main_v38 (ix2 k k')
      refine congrArg _ (funext fun a => Fin.ext ?_)
      match a with
      | ⟨0, _⟩ => show win1_4.index t (0 : Fin 2) * 128 + 1 * k.val = k.val; rw [e40]; omega
      | ⟨1, _⟩ => show win1_4.index t (1 : Fin 2) * 128 + 1 * k'.val = k'.val; rw [e41]; omega
    · show V c main_v39 (((cfg1.win 5).blk t).view.emb (ix2 (0 : Fin 1) k')) = V c main_v39 (ix2 (0 : Fin 1) k')
      refine congrArg _ (funext fun a => Fin.ext ?_)
      match a with
      | ⟨0, _⟩ => show win1_5.index t (0 : Fin 2) * 1 + 1 * 0 = 0; rw [e50]
      | ⟨1, _⟩ => show win1_5.index t (1 : Fin 2) * 128 + 1 * k'.val = k'.val; rw [e51]; omega
  have hw : ∀ k : Fin 128, iblk1 V c 6 t (ix2 k q) = V c main_v40 (ix2 k q) := by
    intro k
    show V c main_v40 (((cfg1.win 6).blk t).view.emb (ix2 k q)) = V c main_v40 (ix2 k q)
    refine congrArg _ (funext fun a => Fin.ext ?_)
    match a with
    | ⟨0, _⟩ => show win1_6.index t (0 : Fin 2) * 128 + 1 * k.val = k.val; rw [e60]; omega
    | ⟨1, _⟩ => show win1_6.index t (1 : Fin 2) * 40 + 1 * q.val = q.val; rw [e61]; omega
  have hb : iblk1 V c 7 t (ix2 (0 : Fin 1) q) = V c main_v41 (ix2 (0 : Fin 1) q) := by
    show V c main_v41 (((cfg1.win 7).blk t).view.emb (ix2 (0 : Fin 1) q)) = V c main_v41 (ix2 (0 : Fin 1) q)
    refine congrArg _ (funext fun a => Fin.ext ?_)
    match a with
    | ⟨0, _⟩ => show win1_7.index t (0 : Fin 2) * 1 + 1 * 0 = 0; rw [e70]
    | ⟨1, _⟩ => show win1_7.index t (1 : Fin 2) * 40 + 1 * q.val = q.val; rw [e71]; omega
  rw [hb]
  refine congrArg (· + V c main_v41 (ix2 (0 : Fin 1) q)) (Finset.sum_congr rfl fun k _ => ?_)
  rw [hrow k, hw k]

/-- An index of the output array is in point `t`'s block iff each coordinate is in the block's range on its axis. -/
theorem mem_blk1 (t : Fin cfg1.N) (i : S100000x40.Idx) :
    i ∈ ((cfg1.win 8).blk t).view.set ↔ ∀ a : Fin 2, win1_8.index t a * S5000x40.size a ≤ (i a).val ∧ (i a).val < win1_8.index t a * S5000x40.size a + S5000x40.size a := by
  show i ∈ ((View.whole main_v42).slice (win1_8.rect t)).set ↔ _
  rw [View.set_slice_whole, Rect.mem_set_unit]
  exact Iff.rfl

/-- Every node's row is in the block of the grid point `row / 5000`. -/
theorem cover1 (i : S100000x40.Idx) :
    ∃ t : Fin cfg1.N, (cfg1.win 8).flush t = true ∧ i ∈ ((cfg1.win 8).blk t).view.set := by
  have hi0 : (i 0).val < 100000 := (i 0).isLt
  have hi1 : (i 1).val < 40 := (i 1).isLt
  obtain ⟨t, ht⟩ := onto1 ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk1]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 40 ≤ (i 1).val ∧ (i 1).val < win1_8.index t (1 : Fin 2) * 40 + 40; omega

/-- The output array after the region: the classifier's output on the second layer, everywhere. -/
theorem final1 : (dat1 V c).arrAt 8 cfg1.N = logits1 V c :=
  (dat1 V c).arrAt_eq_of_cover 8 (logits1 V c) (fun t _ => flushed1 V c t) (cover1)

end Region1

end Cert.KernelIdeal.Net

end
-- ==== Proof.SageGraph.lean ====
/-
  The graph operations both programs share, named once and never opened.

  From the edge list `E : [2, 1600000]` (row 0 the source node of each edge, row 1 its destination):
  `agg E H` is the neighbourhood sum — row `n` is the sum of the rows `H[src e]` over the edges `e` with `dst e = n`
  (a gather by the sources, negative indices wrapped, then a scatter-add by the destinations into zeros) —,
  `degree E` the in-degree (a scatter-add of ones), `degClamp E = max(degree, 1)`, and `invCol E` the column of
  reciprocals `1 / degClamp`.

  Only two facts about them are used, both pointwise and neither opening the gather or the scatter: the clamped degree
  at a node is the maximum of the degree there and one, and the column's entry for a node is one divided by the clamped
  degree there.
-/
import proofs.«105502_j52123723104477_2_alg».proof.Proof.Gen.KernelIdeal
import proofs.«105502_j52123723104477_2_alg».proof.Proof.LibKeepdims
import proofs.«105502_j52123723104477_2_alg».proof.Proof.SageSpec
import Idealize.ShloMosaic.PureOps.Ideal
import Idealize.ShloMosaic.Lib.ValueIdx
import Idealize.ShloMosaic.Lib.Pipeline.Value

noncomputable section

namespace Cert.KernelIdeal.Graph

open Cert.KernelIdeal Cert.KernelIdeal.Gen Idealize.ShloMosaic Idealize.ShloMosaic.ValueIdx

variable (E : S2x1600000.Idx → BitVec 32)

/-- The source node of each edge. -/
def srcVec : S1600000.Idx → BitVec 32 :=
  shapeCast S1600000 (extractStridedSlice S1x1600000 ![0, 0] E slices_S2x1600000_S1x1600000_0_0) shapeCasts_S1x1600000_S1600000

/-- The destination node of each edge. -/
def dstVec : S1600000.Idx → BitVec 32 :=
  shapeCast S1600000 (extractStridedSlice S1x1600000 ![1, 0] E slices_S2x1600000_S1x1600000_1_0) shapeCasts_S1x1600000_S1600000

/-- The sources as a column of row indices, a negative index counted from the end. -/
def srcCol : S1600000x1.Idx → BitVec 32 :=
  broadcastInDim S1600000x1 ![0] bcast_S1600000_S1600000x1_0
    (select (cmpi .slt (srcVec E) (broadcastInDim S1600000 ![] bcast_S_S1600000 (constantI S_ 32 0#32)))
      (addi (srcVec E) (broadcastInDim S1600000 ![] bcast_S_S1600000 (constantI S_ 32 100000#32)))
      (srcVec E))

/-- The destinations as a column of row indices. -/
def dstCol : S1600000x1.Idx → BitVec 32 :=
  broadcastInDim S1600000x1 ![0] bcast_S1600000_S1600000x1_0 (dstVec E)

/-- The neighbourhood sum of a feature array. -/
def agg (H : S100000x128.Idx → EReal) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (dstCol E)
    (Host.gather gather_S100000x128_S1600000x1_S1600000x128_1_0_n_n_0_1_1128 H (srcCol E))

/-- The in-degree of every node. -/
def degree : S100000.Idx → EReal :=
  Host.scatterAdd (F := Ideal) scatter_S100000_S1600000x1_S1600000_n_0_0_1
    (broadcastInDim S100000 ![] bcast_S_S100000 (constant (F := Ideal) S_ .f32 0x00000000#32))
    (dstCol E)
    (broadcastInDim S1600000 ![] bcast_S_S1600000 (constant (F := Ideal) S_ .f32 0x3F800000#32))

/-- The in-degree clamped below by one. -/
def degClamp : S100000.Idx → EReal :=
  maximumf (F := Ideal) (degree E) (broadcastInDim S100000 ![] bcast_S_S100000 (constant (F := Ideal) S_ .f32 0x3F800000#32))

/-- The reciprocals of the clamped in-degrees, as a column. -/
def invCol : S100000x1.Idx → EReal :=
  shapeCast S100000x1
    (Host.divf (F := Ideal) (broadcastInDim S100000 ![] bcast_S_S100000 (constant (F := Ideal) S_ .f32 0x3F800000#32)) (degClamp E))
    shapeCasts_S100000_S100000x1

/-- A scalar spread over the nodes reads, at every node, the scalar. -/
theorem spread_apply (y : S_.Idx → EReal) (i : S100000.Idx) :
    broadcastInDim S100000 ![] bcast_S_S100000 y i = y (fun a => a.elim0) := by
  exact broadcastInDim_apply _ bcast_S_S100000 y i (fun a => a.elim0) (fun a => a.elim0)

/-- A scalar constant spread over the nodes reads, at every node, the constant. -/
theorem splat_apply (w : BitVec 32) (i : S100000.Idx) :
    broadcastInDim S100000 ![] bcast_S_S100000 (constant (F := Ideal) S_ .f32 w) i = Ideal.ofBits .f32 w := by
  rw [spread_apply]
  rfl

/-- The clamped degree at a node is the maximum of the degree there and one. -/
theorem degClamp_apply (n : Fin 100000) : degClamp E (ix1 n) = max (degree E (ix1 n)) Sage.one := by
  unfold degClamp
  rw [maximumf_apply, splat_apply]

/-- The host quotient of two per-node vectors reads, at a node, the quotient of their entries there. -/
theorem quotient_apply (a b : FVec Ideal S100000 .f32) (i : S100000.Idx) :
    Host.divf (F := Ideal) a b i = Ideal.div (a i) (b i) := rfl

/-- The column's entry for a node is one divided by the clamped degree there. -/
theorem invCol_apply (n : Fin 100000) : invCol E (ix2 n (0 : Fin 1)) = Ideal.div Sage.one (degClamp E (ix1 n)) := by
  unfold invCol
  rw [Keepdims.shapeCast_a_a1_apply, quotient_apply, splat_apply]

/-- Scaling the rows of any array by the reciprocal column IS dividing them by the clamped degrees. -/
theorem scale_eq_div (S : Sage.Feat.Idx → EReal) : Sage.scaleRows S (invCol E) = Sage.divRows S (degClamp E) :=
  Sage.scaleRows_eq_divRows S (invCol E) (degClamp E) (degree E) (degClamp_apply E) (invCol_apply E)

end Cert.KernelIdeal.Graph

end
-- ==== Proof.KernelEntry0.lean ====
/-
  What the first kernel region finds in its operands' arrays: the host operations before it, read back.

  The features are the argument itself; the neighbourhood sums are `agg` of the features; the reciprocal-degree column is
  `invCol`; the two weight matrices are the arguments narrowed (the identity on the extended reals); the bias row is the
  bias vector recast as one row. The two edge-list vectors the later host operations read again are named here too.
-/
import proofs.«105502_j52123723104477_2_alg».proof.Proof.Gen.KernelIdeal.Frame
import proofs.«105502_j52123723104477_2_alg».proof.Proof.SageGraph
import Idealize.ShloMosaic.Lib.StableHlo.Run
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 2000000 in
/-- The features are the argument as launched. -/
theorem entry0_features : V1 m ρ c main_arg0 = (m ((c : Thread nD τ).loc main_arg0)) := by
  show StableHlo.after hostOps0 (W0 m ρ c) (Proc.devRef .tc main_arg0) = _
  after_results_simp <;> rfl

set_option maxHeartbeats 2000000 in
/-- The neighbourhood sums of the features. -/
theorem entry0_sums : V1 m ρ c main_v22 = Graph.agg (m ((c : Thread nD τ).loc main_arg1)) (m ((c : Thread nD τ).loc main_arg0)) := by
  show StableHlo.after hostOps0 (W0 m ρ c) (Proc.devRef .tc main_v22) = _
  after_results_simp <;> rfl

set_option maxHeartbeats 2000000 in
/-- The reciprocal-degree column. -/
theorem entry0_inv : V1 m ρ c main_v12 = Graph.invCol (m ((c : Thread nD τ).loc main_arg1)) := by
  show StableHlo.after hostOps0 (W0 m ρ c) (Proc.devRef .tc main_v12) = _
  after_results_simp <;> rfl

set_option maxHeartbeats 2000000 in
/-- The self weights: the argument, narrowed. -/
theorem entry0_wself : (V1 m ρ c main_v23 : S128x128.Idx → EReal) = (m ((c : Thread nD τ).loc main_arg2)) := by
  show StableHlo.after hostOps0 (W0 m ρ c) (Proc.devRef .tc main_v23) = _
  after_results_simp <;> rfl

set_option maxHeartbeats 2000000 in
/-- The neighbour weights: the argument, narrowed. -/
theorem entry0_wneigh : (V1 m ρ c main_v24 : S128x128.Idx → EReal) = (m ((c : Thread nD τ).loc main_arg3)) := by
  show StableHlo.after hostOps0 (W0 m ρ c) (Proc.devRef .tc main_v24) = _
  after_results_simp <;> rfl

set_option maxHeartbeats 2000000 in
/-- The bias row: the bias vector recast as one row. -/
theorem entry0_bias : V1 m ρ c main_v25 = shapeCast S1x128 (m ((c : Thread nD τ).loc main_arg4)) shapeCasts_S128_S1x128 := by
  show StableHlo.after hostOps0 (W0 m ρ c) (Proc.devRef .tc main_v25) = _
  after_results_simp <;> rfl

set_option maxHeartbeats 2000000 in
/-- The edge sources, as the first host stretch leaves them. -/
theorem entry0_src : W1 m ρ c (Proc.devRef .tc main_v1) = Graph.srcVec (m ((c : Thread nD τ).loc main_arg1)) := by
  show StableHlo.after hostOps0 (W0 m ρ c) (Proc.devRef .tc main_v1) = _
  after_results_simp <;> rfl

set_option maxHeartbeats 2000000 in
/-- The edge destinations, as the first host stretch leaves them. -/
theorem entry0_dst : W1 m ρ c (Proc.devRef .tc main_v3) = Graph.dstVec (m ((c : Thread nD τ).loc main_arg1)) := by
  show StableHlo.after hostOps0 (W0 m ρ c) (Proc.devRef .tc main_v3) = _
  after_results_simp <;> rfl

set_option maxHeartbeats 2000000 in
/-- The later arguments are untouched by the first host stretch. -/
theorem entry0_args : W1 m ρ c (Proc.devRef .tc main_arg5) = (m ((c : Thread nD τ).loc main_arg5))
    ∧ W1 m ρ c (Proc.devRef .tc main_arg6) = (m ((c : Thread nD τ).loc main_arg6))
    ∧ W1 m ρ c (Proc.devRef .tc main_arg7) = (m ((c : Thread nD τ).loc main_arg7))
    ∧ W1 m ρ c (Proc.devRef .tc main_arg8) = (m ((c : Thread nD τ).loc main_arg8))
    ∧ W1 m ρ c (Proc.devRef .tc main_arg9) = (m ((c : Thread nD τ).loc main_arg9)) := by
  refine ⟨?_, ?_, ?_, ?_, ?_⟩
  · show StableHlo.after hostOps0 (W0 m ρ c) (Proc.devRef .tc main_arg5) = _
    after_results_simp <;> rfl
  · show StableHlo.after hostOps0 (W0 m ρ c) (Proc.devRef .tc main_arg6) = _
    after_results_simp <;> rfl
  · show StableHlo.after hostOps0 (W0 m ρ c) (Proc.devRef .tc main_arg7) = _
    after_results_simp <;> rfl
  · show StableHlo.after hostOps0 (W0 m ρ c) (Proc.devRef .tc main_arg8) = _
    after_results_simp <;> rfl
  · show StableHlo.after hostOps0 (W0 m ρ c) (Proc.devRef .tc main_arg9) = _
    after_results_simp <;> rfl

end Cert.KernelIdeal.Net

end
-- ==== Proof.KernelEntry1.lean ====
/-
  What the second kernel region finds in its operands' arrays.

  The first region's output — one layer's activations, by the blocks-to-array argument — is the second region's feature
  operand; the host operations between the regions gather and scatter-add it into the second neighbourhood sum with the
  same edge list; the reciprocal-degree column is the one computed before the first region, carried through it unchanged
  (it is an input window there); the weights are the later arguments, narrowed; the bias rows are the bias vectors
  recast.
-/
import proofs.«105502_j52123723104477_2_alg».proof.Proof.Gen.KernelIdeal.Frame
import proofs.«105502_j52123723104477_2_alg».proof.Proof.SageGraph
import proofs.«105502_j52123723104477_2_alg».proof.Proof.KernelBlocks
import proofs.«105502_j52123723104477_2_alg».proof.Proof.KernelEntry0
import Idealize.ShloMosaic.Lib.StableHlo.Run
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer: what the first region leaves, of the arguments. -/
def firstLayer : Sage.Feat.Idx → EReal := hidden0 (V1 m ρ) c

/-- After the first region its output array holds the first layer. -/
theorem mid_layer : W2 m ρ c (Proc.devRef .tc main_v26) = firstLayer m ρ c :=
  (W2_arr m ρ c 6).trans (final0 (V1 m ρ) c)

/-- The first region leaves the reciprocal-degree column as it found it. -/
theorem mid_inv : W2 m ρ c (Proc.devRef .tc main_v12) = Graph.invCol (m ((c : Thread nD τ).loc main_arg1)) :=
  ((W2_arr m ρ c 2).trans (((dat0 (V1 m ρ) c).arrAt_in 2 rfl _).trans (A_eq0 (V1 m ρ) c 2))).trans (entry0_inv m ρ c)

/-- The first region does not touch the edge sources. -/
theorem mid_src : W2 m ρ c (Proc.devRef .tc main_v1) = Graph.srcVec (m ((c : Thread nD τ).loc main_arg1)) :=
  (W2_of_ne m ρ c main_v1 (by decide)).trans (entry0_src m ρ c)

/-- The first region does not touch the edge destinations. -/
theorem mid_dst : W2 m ρ c (Proc.devRef .tc main_v3) = Graph.dstVec (m ((c : Thread nD τ).loc main_arg1)) :=
  (W2_of_ne m ρ c main_v3 (by decide)).trans (entry0_dst m ρ c)

/-- The first region does not touch the later arguments. -/
theorem mid_arg5 : W2 m ρ c (Proc.devRef .tc main_arg5) = (m ((c : Thread nD τ).loc main_arg5)) :=
  (W2_of_ne m ρ c main_arg5 (by decide)).trans (entry0_args m ρ c).1
theorem mid_arg6 : W2 m ρ c (Proc.devRef .tc main_arg6) = (m ((c : Thread nD τ).loc main_arg6)) :=
  (W2_of_ne m ρ c main_arg6 (by decide)).trans (entry0_args m ρ c).2.1
theorem mid_arg7 : W2 m ρ c (Proc.devRef .tc main_arg7) = (m ((c : Thread nD τ).loc main_arg7)) :=
  (W2_of_ne m ρ c main_arg7 (by decide)).trans (entry0_args m ρ c).2.2.1
theorem mid_arg8 : W2 m ρ c (Proc.devRef .tc main_arg8) = (m ((c : Thread nD τ).loc main_arg8)) :=
  (W2_of_ne m ρ c main_arg8 (by decide)).trans (entry0_args m ρ c).2.2.2.1
theorem mid_arg9 : W2 m ρ c (Proc.devRef .tc main_arg9) = (m ((c : Thread nD τ).loc main_arg9)) :=
  (W2_of_ne m ρ c main_arg9 (by decide)).trans (entry0_args m ρ c).2.2.2.2

set_option maxHeartbeats 2000000 in
/-- The second region's features are the first layer. -/
theorem entry1_features : V3 m ρ c main_v26 = firstLayer m ρ c := by
  show StableHlo.after hostOps1 (W2 m ρ c) (Proc.devRef .tc main_v26) = _
  after_results_simp
  exact mid_layer m ρ c

set_option maxHeartbeats 2000000 in
/-- The second neighbourhood sum: the shared graph operation on the first layer. -/
theorem entry1_sums : V3 m ρ c main_v36 = Graph.agg (m ((c : Thread nD τ).loc main_arg1)) (firstLayer m ρ c) := by
  show StableHlo.after hostOps1 (W2 m ρ c) (Proc.devRef .tc main_v36) = _
  after_results_simp
  rw [mid_layer, mid_src, mid_dst]
  rfl

set_option maxHeartbeats 2000000 in
/-- The reciprocal-degree column, unchanged. -/
theorem entry1_inv : V3 m ρ c main_v12 = Graph.invCol (m ((c : Thread nD τ).loc main_arg1)) := by
  show StableHlo.after hostOps1 (W2 m ρ c) (Proc.devRef .tc main_v12) = _
  after_results_simp
  exact mid_inv m ρ c

set_option maxHeartbeats 2000000 in
/-- The second layer's self weights: the argument, narrowed. -/
theorem entry1_wself : (V3 m ρ c main_v37 : S128x128.Idx → EReal) = (m ((c : Thread nD τ).loc main_arg5)) := by
  show StableHlo.after hostOps1 (W2 m ρ c) (Proc.devRef .tc main_v37) = _
  after_results_simp
  rw [mid_arg5]
  rfl

set_option maxHeartbeats 2000000 in
/-- The second layer's neighbour weights: the argument, narrowed. -/
theorem entry1_wneigh : (V3 m ρ c main_v38 : S128x128.Idx → EReal) = (m ((c : Thread nD τ).loc main_arg6)) := by
  show StableHlo.after hostOps1 (W2 m ρ c) (Proc.devRef .tc main_v38) = _
  after_results_simp
  rw [mid_arg6]
  rfl

set_option maxHeartbeats 2000000 in
/-- The second layer's bias row: the bias vector recast as one row. -/
theorem entry1_bias : V3 m ρ c main_v39 = shapeCast S1x128 (m ((c : Thread nD τ).loc main_arg7)) shapeCasts_S128_S1x128 := by
  show StableHlo.after hostOps1 (W2 m ρ c) (Proc.devRef .tc main_v39) = _
  after_results_simp
  rw [mid_arg7]
  rfl

set_option maxHeartbeats 2000000 in
/-- The classifier's weights: the argument, narrowed. -/
theorem entry1_wcls : (V3 m ρ c main_v40 : S128x40.Idx → EReal) = (m ((c : Thread nD τ).loc main_arg8)) := by
  show StableHlo.after hostOps1 (W2 m ρ c) (Proc.devRef .tc main_v40) = _
  after_results_simp
  rw [mid_arg8]
  rfl

set_option maxHeartbeats 2000000 in
/-- The classifier's bias row: the bias vector recast as one row. -/
theorem entry1_bcls : V3 m ρ c main_v41 = shapeCast S1x40 (m ((c : Thread nD τ).loc main_arg9)) shapeCasts_S40_S1x40 := by
  show StableHlo.after hostOps1 (W2 m ρ c) (Proc.devRef .tc main_v41) = _
  after_results_simp
  rw [mid_arg9]
  rfl

end Cert.KernelIdeal.Net

end
-- ==== Proof.KernelValue.lean ====
/-
  The idealized kernel's result as the specification.

  The second region's output array holds the classifier on a second layer of the arrays that region finds at entry;
  those are the first layer (the first region's output), its neighbourhood sum, the reciprocal-degree column and the
  later arguments; the first layer is in turn a layer of the arguments. In both layers the rows of the neighbourhood
  sum are SCALED by the reciprocals of the clamped in-degrees; since a product with the reciprocal of a nonzero divisor
  is the quotient, that is the rows DIVIDED by the clamped in-degrees — the form the reference computes.
-/
import proofs.«105502_j52123723104477_2_alg».proof.Proof.KernelBlocks
import proofs.«105502_j52123723104477_2_alg».proof.Proof.KernelEntry0
import proofs.«105502_j52123723104477_2_alg».proof.Proof.KernelEntry1
import Idealize.ShloMosaic.Lib.ValueLayout

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem

/-- A bias vector recast as one row, read back as a vector, is the vector. -/
theorem biasOfRow_cast (b : S128.Idx → EReal) : biasOfRow (shapeCast S1x128 b shapeCasts_S128_S1x128) = b := by
  funext j
  obtain ⟨q, rfl⟩ : ∃ q : Fin 128, j = ix1 q := ⟨j 0, eq_ix1 j⟩
  exact shapeCast_a_1a_apply b shapeCasts_S128_S1x128 (0 : Fin 1) q

/-- The classifier's bias vector recast as one row, read back as a vector, is the vector. -/
theorem clsBiasOfRow_cast (b : S40.Idx → EReal) : clsBiasOfRow (shapeCast S1x40 b shapeCasts_S40_S1x40) = b := by
  funext j
  obtain ⟨q, rfl⟩ : ∃ q : Fin 40, j = ix1 q := ⟨j 0, eq_ix1 j⟩
  exact shapeCast_a_1a_apply b shapeCasts_S40_S1x40 (0 : Fin 1) q

variable (m : (ℓ : Loc nD τ sig) → Buf (Elt Ideal) ℓ) (ρ : Dev nD → PrngReg) (c : Dev nD)

/-- The first layer, of the arguments, with the rows scaled. -/
theorem firstLayer_eq : firstLayer m ρ c
    = Sage.layer (m ((c : Thread nD τ).loc main_arg0)) (Sage.scaleRows (Graph.agg (m ((c : Thread nD τ).loc main_arg1)) (m ((c : Thread nD τ).loc main_arg0))) (Graph.invCol (m ((c : Thread nD τ).loc main_arg1)))) (m ((c : Thread nD τ).loc main_arg2)) (m ((c : Thread nD τ).loc main_arg3)) (m ((c : Thread nD τ).loc main_arg4)) zero := by
  unfold firstLayer hidden0
  rw [entry0_features, entry0_sums, entry0_inv, entry0_wself, entry0_wneigh, entry0_bias, biasOfRow_cast]

/-- The result buffer, of the first layer and the later arguments, with the rows scaled. -/
theorem result_scaled : W4 m ρ c (Proc.devRef .tc main_v42)
    = Sage.classify
        (Sage.layer (firstLayer m ρ c) (Sage.scaleRows (Graph.agg (m ((c : Thread nD τ).loc main_arg1)) (firstLayer m ρ c)) (Graph.invCol (m ((c : Thread nD τ).loc main_arg1))))
          (m ((c : Thread nD τ).loc main_arg5)) (m ((c : Thread nD τ).loc main_arg6)) (m ((c : Thread nD τ).loc main_arg7)) zero)
        (m ((c : Thread nD τ).loc main_arg8)) (m ((c : Thread nD τ).loc main_arg9)) := by
  refine (W4_arr m ρ c 8).trans ((final1 (V3 m ρ) c).trans ?_)
  unfold logits1 hidden1
  rw [entry1_features, entry1_sums, entry1_inv, entry1_wself, entry1_wneigh, entry1_bias, entry1_wcls, entry1_bcls,
    biasOfRow_cast, clsBiasOfRow_cast]

/-- THE KERNEL'S RESULT: the classifier on two layers, the rows of each neighbourhood sum divided by the clamped
    in-degrees. -/
theorem kernel_value : W4 m ρ c (Proc.devRef .tc main_v42)
    = Sage.classify
        (Sage.layer
          (Sage.layer (m ((c : Thread nD τ).loc main_arg0)) (Sage.divRows (Graph.agg (m ((c : Thread nD τ).loc main_arg1)) (m ((c : Thread nD τ).loc main_arg0))) (Graph.degClamp (m ((c : Thread nD τ).loc main_arg1)))) (m ((c : Thread nD τ).loc main_arg2)) (m ((c : Thread nD τ).loc main_arg3)) (m ((c : Thread nD τ).loc main_arg4)) zero)
          (Sage.divRows
            (Graph.agg (m ((c : Thread nD τ).loc main_arg1))
              (Sage.layer (m ((c : Thread nD τ).loc main_arg0)) (Sage.divRows (Graph.agg (m ((c : Thread nD τ).loc main_arg1)) (m ((c : Thread nD τ).loc main_arg0))) (Graph.degClamp (m ((c : Thread nD τ).loc main_arg1)))) (m ((c : Thread nD τ).loc main_arg2)) (m ((c : Thread nD τ).loc main_arg3)) (m ((c : Thread nD τ).loc main_arg4)) zero))
            (Graph.degClamp (m ((c : Thread nD τ).loc main_arg1))))
          (m ((c : Thread nD τ).loc main_arg5)) (m ((c : Thread nD τ).loc main_arg6)) (m ((c : Thread nD τ).loc main_arg7)) zero)
        (m ((c : Thread nD τ).loc main_arg8)) (m ((c : Thread nD τ).loc main_arg9)) := by
  rw [result_scaled, firstLayer_eq]
  simp only [Graph.scale_eq_div]

end Cert.KernelIdeal.Net

end
-- ==== Proof.RefValue.lean ====
/-
  The reference, read as the specification.

  The reference computes each layer on whole arrays on the host: two matrix products, their sum, the bias spread down
  the rows, the rectifier; the neighbour term's operand is the neighbourhood sum with every row DIVIDED by the clamped
  in-degree of its node. Read at a node `n` and a channel `q` that is the specification's layer with the rows divided
  (`Sage.divRows`). Its gathers and scatter-adds are the shared graph operations: the same operations on the same
  operands, so they are identified without being opened. The classifier is one more product and a bias.
-/
import proofs.«105502_j52123723104477_2_alg».proof.Proof.Gen.ReferenceIdeal.Read
import proofs.«105502_j52123723104477_2_alg».proof.Proof.SageSpec
import proofs.«105502_j52123723104477_2_alg».proof.Proof.SageGraph
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The rectifier's zero, as the programs spell it. -/
abbrev zero : EReal := Ideal.ofBits .f32 0x00000000#32

/-! ## The host operations read at an index, over variable operands -/

/-- A `[100000, 128] × [128, 128]` product on the host at `(n, q)`: the sum over the contracted channel. -/
theorem dot_sq_apply (A : FVec Ideal S100000x128 .f32) (B : FVec Ideal S128x128 .f32) (n : Fin 100000) (q : Fin 128) :
    Host.dotGeneral (F := Ideal) dot_S100000x128_S128x128_S100000x128_1_0_0_1_n_n none A B (ix2 n q) = ∑ k : Fin 128, A (ix2 n k) * B (ix2 k q) := by
  refine (val_main_v23_apply A B (ix2 n q)).trans (Finset.sum_congr rfl fun k _ => ?_)
  have el : lidx_main_v23 (ix2 n q) k = ix2 n k := funext fun a => Fin.ext (by match a with | ⟨0, _⟩ => rfl | ⟨1, _⟩ => rfl)
  have er : ridx_main_v23 (ix2 n q) k = ix2 k q := funext fun a => Fin.ext (by match a with | ⟨0, _⟩ => rfl | ⟨1, _⟩ => rfl)
  rw [el, er]

/-- A `[100000, 128] × [128, 40]` product on the host at `(n, q)`. -/
theorem dot_cls_apply (A : FVec Ideal S100000x128 .f32) (B : FVec Ideal S128x40 .f32) (n : Fin 100000) (q : Fin 40) :
    Host.dotGeneral (F := Ideal) dot_S100000x128_S128x40_S100000x40_1_0_0_1_n_n none A B (ix2 n q) = ∑ k : Fin 128, A (ix2 n k) * B (ix2 k q) := by
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 n q) ((ValueIdx.contrEquiv1 dot_S100000x128_S128x40_S100000x40_1_0_0_1_n_n 128 rfl rfl).symm k) = ix2 n k := funext fun a => Fin.ext (by
    match a with
    | ⟨0, _⟩ => exact lhs_main_v56_0 _ _
    | ⟨1, _⟩ => exact (lhs_main_v56_1 _ _).trans hk)
  have er : dot_S100000x128_S128x40_S100000x40_1_0_0_1_n_n.rhsIdx (ix2 n q) ((ValueIdx.contrEquiv1 dot_S100000x128_S128x40_S100000x40_1_0_0_1_n_n 128 rfl rfl).symm k) = ix2 k q := funext fun a => Fin.ext (by
    match a with
    | ⟨0, _⟩ => exact (rhs_main_v56_0 _ _).trans hk
    | ⟨1, _⟩ => exact rhs_main_v56_1 _ _)
  rw [el, er]

/-- A per-node vector made a column and spread along the channels reads, at `(n, k)`, the vector at `n`. -/
theorem perNode_apply (D : FVec Ideal S100000 .f32) (n : Fin 100000) (k : Fin 128) :
    broadcastInDim S100000x128 ![0, 1] bcast_S100000x1_S100000x128_0_1
      (broadcastInDim S100000x1 ![0] bcast_S100000_S100000x1_0 D) (ix2 n k) = D (ix1 n) := by
  generalize hy : broadcastInDim S100000x1 ![0] bcast_S100000_S100000x1_0 D = y
  refine (broadcastInDim_apply _ bcast_S100000x1_S100000x128_0_1 y (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])).trans ?_
  rw [← hy]
  exact broadcastInDim_apply _ bcast_S100000_S100000x1_0 D (ix2 n (0 : Fin 1)) (ix1 n) (fun a => match a with
    | ⟨0, _⟩ => by show n.val = if (100000 : Nat) = 1 then 0 else n.val; rw [if_neg (by decide)])

/-- The bias vector made a row and spread down the nodes reads, at `(n, q)`, the bias at `q`. -/
theorem bias_apply (b : FVec Ideal S128 .f32) (n : Fin 100000) (q : Fin 128) :
    val_main_v27 (F := Ideal) b (ix2 n q) = b (ix1 q) := by
  rw [val_main_v27_apply, val_main_v26_apply]
  exact congrArg b (funext fun a => Fin.ext (by match a with | ⟨0, _⟩ => rfl))

/-- The classifier's bias made a row and spread down the nodes reads, at `(n, q)`, the bias at `q`. -/
theorem clsBias_apply (b : FVec Ideal S40 .f32) (n : Fin 100000) (q : Fin 40) :
    val_main_v58 (F := Ideal) b (ix2 n q) = b (ix1 q) := by
  rw [val_main_v58_apply, val_main_v57_apply]
  exact congrArg b (funext fun a => Fin.ext (by match a with | ⟨0, _⟩ => rfl))

/-- A scalar spread over a feature array reads the scalar everywhere. -/
theorem spread_apply (y : FVec Ideal S_ .f32) (i : S100000x128.Idx) :
    broadcastInDim S100000x128 ![] bcast_S_S100000x128 y i = y (fun a => a.elim0) := by
  exact broadcastInDim_apply _ bcast_S_S100000x128 y i (fun a => a.elim0) (fun a => a.elim0)

/-- The host quotient of two feature arrays reads, at an index, the quotient of their entries there. -/
theorem quotient_apply (a b : FVec Ideal S100000x128 .f32) (i : S100000x128.Idx) :
    Host.divf (F := Ideal) a b i = Ideal.div (a i) (b i) := rfl

/-! ## One layer of the reference -/

/-- One layer as the reference spells it, over variable operands: features `X`, neighbourhood sums `S`, clamped
    degrees `D`, the two weight matrices and the bias. -/
def hostLayer (X S : FVec Ideal S100000x128 .f32) (D : FVec Ideal S100000 .f32) (Ws Wn : FVec Ideal S128x128 .f32)
    (b : FVec Ideal S128 .f32) : FVec Ideal S100000x128 .f32 :=
  maximumf (F := Ideal)
    (addf (F := Ideal)
      (addf (F := Ideal) (Host.dotGeneral (F := Ideal) dot_S100000x128_S128x128_S100000x128_1_0_0_1_n_n none X Ws)
        (Host.dotGeneral (F := Ideal) dot_S100000x128_S128x128_S100000x128_1_0_0_1_n_n none
          (Host.divf (F := Ideal) S (broadcastInDim S100000x128 ![0, 1] bcast_S100000x1_S100000x128_0_1
            (broadcastInDim S100000x1 ![0] bcast_S100000_S100000x1_0 D))) Wn))
      (val_main_v27 (F := Ideal) b))
    (broadcastInDim S100000x128 ![] bcast_S_S100000x128 (constant (F := Ideal) S_ .f32 0x00000000#32))

/-- The reference's layer is the specification's, with the rows of the neighbourhood sum divided by the degrees. -/
theorem hostLayer_eq (X S : FVec Ideal S100000x128 .f32) (D : FVec Ideal S100000 .f32) (Ws Wn : FVec Ideal S128x128 .f32)
    (b : FVec Ideal S128 .f32) : hostLayer X S D Ws Wn b = Sage.layer X (Sage.divRows S D) Ws Wn b zero := by
  funext i
  obtain ⟨n, q, rfl⟩ : ∃ (n : Fin 100000) (q : Fin 128), i = ix2 n q := ⟨i 0, i 1, eq_ix2 i⟩
  rw [Sage.layer_apply]
  unfold hostLayer Sage.layerAt
  rw [maximumf_apply, addf_apply, addf_apply, dot_sq_apply, dot_sq_apply, bias_apply, spread_apply]
  refine congrArg (max · zero) (congrArg (· + b (ix1 q)) (congrArg (_ + ·) (Finset.sum_congr rfl fun k _ => ?_)))
  rw [quotient_apply, perNode_apply, Sage.divRows_apply]

/-- The classifier as the reference spells it, over variable operands. -/
def hostCls (H : FVec Ideal S100000x128 .f32) (Wc : FVec Ideal S128x40 .f32) (bc : FVec Ideal S40 .f32) : FVec Ideal S100000x40 .f32 :=
  addf (F := Ideal) (Host.dotGeneral (F := Ideal) dot_S100000x128_S128x40_S100000x40_1_0_0_1_n_n none H Wc) (val_main_v58 (F := Ideal) bc)

/-- The reference's classifier is the specification's. -/
theorem hostCls_eq (H : FVec Ideal S100000x128 .f32) (Wc : FVec Ideal S128x40 .f32) (bc : FVec Ideal S40 .f32) :
    hostCls H Wc bc = Sage.classify H Wc bc := by
  funext i
  obtain ⟨n, q, rfl⟩ : ∃ (n : Fin 100000) (q : Fin 40), i = ix2 n q := ⟨i 0, i 1, eq_ix2 i⟩
  rw [Sage.classify_apply]
  unfold hostCls Sage.classifyAt
  rw [addf_apply, dot_cls_apply, clsBias_apply]

/-! ## The reference's stages -/

variable (x0 : FVec Ideal S100000x128 .f32) (x1 : S2x1600000.Idx → BitVec 32) (x2 x3 : FVec Ideal S128x128 .f32)
  (x4 : FVec Ideal S128 .f32) (x5 x6 : FVec Ideal S128x128 .f32) (x7 : FVec Ideal S128 .f32) (x8 : FVec Ideal S128x40 .f32)
  (x9 : FVec Ideal S40 .f32)

/-- The first neighbourhood sum is the shared graph operation on the features. -/
theorem sums1_eq : val_main_v13 (F := Ideal) x0 x1 = Cert.KernelIdeal.Graph.agg x1 x0 := rfl

/-- The clamped in-degree, computed for the first layer, is the shared one. -/
theorem deg1_eq : val_main_v19 (F := Ideal) x1 = Cert.KernelIdeal.Graph.degClamp x1 := rfl

/-- The first layer is the host layer of the features. -/
theorem layer1_eq : val_main_v29 (F := Ideal) x0 x1 x2 x3 x4
    = hostLayer x0 (val_main_v13 (F := Ideal) x0 x1) (val_main_v19 (F := Ideal) x1) x2 x3 x4 := rfl

/-- The second neighbourhood sum is the shared graph operation on the first layer. -/
theorem sums2_eq : val_main_v39 (F := Ideal) x0 x1 x2 x3 x4
    = Cert.KernelIdeal.Graph.agg x1 (val_main_v29 (F := Ideal) x0 x1 x2 x3 x4) := rfl

/-- The clamped in-degree, computed again for the second layer, is the shared one. -/
theorem deg2_eq : val_main_v45 (F := Ideal) x1 = Cert.KernelIdeal.Graph.degClamp x1 := rfl

/-- The second layer is the host layer of the first. -/
theorem layer2_eq : val_main_v55 (F := Ideal) x0 x1 x2 x3 x4 x5 x6 x7
    = hostLayer (val_main_v29 (F := Ideal) x0 x1 x2 x3 x4) (val_main_v39 (F := Ideal) x0 x1 x2 x3 x4)
        (val_main_v45 (F := Ideal) x1) x5 x6 x7 := rfl

/-- The result is the host classifier of the second layer. -/
theorem result_eq : val_main_v59 (F := Ideal) x0 x1 x2 x3 x4 x5 x6 x7 x8 x9
    = hostCls (val_main_v55 (F := Ideal) x0 x1 x2 x3 x4 x5 x6 x7) x8 x9 := rfl

/-- THE REFERENCE'S RESULT: the classifier on two layers, the rows of each neighbourhood sum divided by the clamped
    in-degrees. -/
theorem ref_value : val_main_v59 (F := Ideal) x0 x1 x2 x3 x4 x5 x6 x7 x8 x9
    = Sage.classify
        (Sage.layer
          (Sage.layer x0 (Sage.divRows (Cert.KernelIdeal.Graph.agg x1 x0) (Cert.KernelIdeal.Graph.degClamp x1)) x2 x3 x4 zero)
          (Sage.divRows
            (Cert.KernelIdeal.Graph.agg x1
              (Sage.layer x0 (Sage.divRows (Cert.KernelIdeal.Graph.agg x1 x0) (Cert.KernelIdeal.Graph.degClamp x1)) x2 x3 x4 zero))
            (Cert.KernelIdeal.Graph.degClamp x1))
          x5 x6 x7 zero)
        x8 x9 := by
  rw [result_eq, hostCls_eq, layer2_eq, hostLayer_eq, sums2_eq, deg2_eq, layer1_eq, hostLayer_eq, sums1_eq, deg1_eq]

end Cert.ReferenceIdeal.RefValue

end
-- ==== Proof.lean ====
/-
  A two-layer mean-aggregating graph network with a linear classifier: a kernel in two pipelined regions against a
  whole-array reference, equal on the extended reals.

  Both programs gather the features along the edges and scatter-add them by destination (the neighbourhood sum), count
  the in-degree by a scatter-add of ones and clamp it below by one. The kernel multiplies each row of the neighbourhood
  sum by the RECIPROCAL `1 / max(deg, 1)`, computed once on the host, inside each region; the reference DIVIDES each row
  by `max(deg, 1)`. On the extended reals `x · (1 / d) = x / d` for every `d ≠ 0`, the infinities included, and
  `max(deg, 1) ≥ 1` is never zero: no finiteness of the inputs is used. Everything else is the same arithmetic in a
  different arrangement — the kernel's matrix products into a zero accumulator are the host's products, its narrowing
  casts are the identity on the extended reals, its blocks of 5000 nodes tile the 100000 — so both results are the
  classifier applied to two layers of the arguments, index by index (Proof/KernelValue.lean, Proof/RefValue.lean).

  The frames: the generated frame of each kernel program, and the reference's generated run with its result dropped.
  The idealization rewrote no operation, so it is the program's own text read on the extended reals.
-/
import proofs.«105502_j52123723104477_2_alg».proof.Defs
import proofs.«105502_j52123723104477_2_alg».proof.Proof.Gen.Kernel
import proofs.«105502_j52123723104477_2_alg».proof.Proof.Gen.Kernel.Skeleton
import proofs.«105502_j52123723104477_2_alg».proof.Proof.Gen.Kernel.Launch
import proofs.«105502_j52123723104477_2_alg».proof.Proof.Gen.Kernel.Points
import proofs.«105502_j52123723104477_2_alg».proof.Proof.Gen.Kernel.Frame
import proofs.«105502_j52123723104477_2_alg».proof.Proof.Gen.KernelIdeal
import proofs.«105502_j52123723104477_2_alg».proof.Proof.Gen.KernelIdeal.Skeleton
import proofs.«105502_j52123723104477_2_alg».proof.Proof.Gen.KernelIdeal.Launch
import proofs.«105502_j52123723104477_2_alg».proof.Proof.Gen.KernelIdeal.Points
import proofs.«105502_j52123723104477_2_alg».proof.Proof.Gen.KernelIdeal.Frame
import proofs.«105502_j52123723104477_2_alg».proof.Proof.Gen.ReferenceIdeal
import proofs.«105502_j52123723104477_2_alg».proof.Proof.Gen.Pre_finite_inputs
import proofs.«105502_j52123723104477_2_alg».proof.Proof.Gen.ReferenceIdeal.Run
import proofs.«105502_j52123723104477_2_alg».proof.Proof.Gen.ReferenceIdeal.Read
import proofs.«105502_j52123723104477_2_alg».proof.Proof.KernelRun
import proofs.«105502_j52123723104477_2_alg».proof.Proof.KernelValue
import proofs.«105502_j52123723104477_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both idealized programs end with the classifier on two layers of the
    arguments, the rows of each neighbourhood sum divided by the clamped in-degrees: the kernel by its regions'
    write-backs (`kernel_value`), the reference by its stages (`ref_value`). -/
theorem algebraic : Cert.algebraic_KernelIdeal_ReferenceIdeal := by
  intro m ρ m' ρ' _ hagree
  refine ⟨fun c => Cert.KernelIdeal.Gen.W4 m ρ c (Proc.devRef .tc Cert.KernelIdeal.main_v42),
    Cert.KernelIdeal.Net.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v59_eq, Cert.ReferenceIdeal.RefValue.ref_value, h0, h1, h2, h3, h4, h5, h6, h7, h8, h9]
  exact (Cert.KernelIdeal.Net.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
